-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S32768x2048 : Shape := ⟨2, ![32768, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x2048x2048, .f32⟩
  | .hbm, ⟨1, _⟩ => ⟨S32768x2048, .f32⟩
  | .hbm, ⟨2, _⟩ => ⟨S32768x2048, .f32⟩
  | .hbm, ⟨3, _⟩ => ⟨S16x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x2048x2048_S32768x2048 : S16x2048x2048.ShapeCasts S32768x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S32768x2048_S16x2048x2048 : S32768x2048.ShapeCasts S16x2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S32768x2048.size a
  hwx0_1 : ∀ i : grid0.Coords, EltTy.bits .f32 = 32 ∨ (Rect.block (s := S32768x2048) S512x2048.size (cc0_transform_1 i) (hinb0_1 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048x1, .f32⟩
  | .hbm, ⟨10, _⟩ => ⟨S16x2048x2048, .f32⟩
  | .hbm, ⟨11, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)

variable [Facts₀]

class Facts : Prop extends Facts₀ where

variable [Facts]
-- ==== Proof.RowNorm.lean ====
/-
  Row-wise L1 normalisation with a clamped denominator, on the extended reals.

  Every row of a matrix is multiplied by one factor, 1 / max(s, ε), where s is the sum of the row's entries and ε
  the clamp.  The same rows can be laid out as a [16, 2048, 2048] array (row (a, b)) or as its row-major
  flattening, a [32768, 2048] array (row a·2048 + b).  Flattening, normalising the 32768 rows and unflattening is
  normalising the 16·2048 rows in place: a row's entries, and so its sum and its factor, are the same numbers in
  both layouts.  No algebraic law of the extended reals is needed for that — only that the two layouts list the
  same entries — so nothing here asks the entries to be finite.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RowNorm

open Idealize.ShloMosaic Idealize.ShloMosaic.ValueIdx

/-- The array as given: 16 matrices of 2048 rows of 2048 entries. -/
abbrev Cube : Shape := ⟨3, ![16, 2048, 2048]⟩
/-- Its row-major flattening: 32768 rows of 2048 entries. -/
abbrev Flat : Shape := ⟨2, ![32768, 2048]⟩

/-- The factor of a row whose entries sum to `s`: one over the larger of `s` and the clamp (the two float words
    are the numbers 1 and the clamp ε; they are never evaluated, both programs carry the same words). -/
def scale (s : EReal) : EReal :=
  Ideal.div (Ideal.ofBits .f32 0x3F800000#32) (max s (Ideal.ofBits .f32 0x3727C5AC#32))

/-- The rows of the [16, 2048, 2048] array normalised: entry (a, b, j) times the factor of row (a, b). -/
def normCube (x : Cube.Idx → EReal) : Cube.Idx → EReal :=
  fun i => x i * scale (∑ k : Fin 2048, x (ix3 (i 0) (i 1) k))

/-- The rows of the flattened [32768, 2048] array normalised: entry (r, j) times the factor of row r. -/
def normFlat (y : Flat.Idx → EReal) : Flat.Idx → EReal :=
  fun j => y j * scale (∑ k : Fin 2048, y (ix2 (j 0) k))

/-- Row (a, b) of the array is row a·2048 + b of its flattening. -/
def flatRow (a : Fin 16) (b : Fin 2048) : Fin 32768 :=
  ⟨a.val * 2048 + b.val, by have := a.isLt; have := b.isLt; omega⟩

/-- Entry (a, b, k) sits at the same row-major position as entry (a·2048 + b, k) of the flattening. -/
theorem rowMajor_flat (a : Fin 16) (b : Fin 2048) (k : Fin 2048) :
    (Cube.rowMajor (ix3 a b k)).val = (Flat.rowMajor (ix2 (flatRow a b) k)).val := by
  rw [Shape.rowMajor_val_three, Shape.rowMajor_val_two]
  rfl

/-- The flattening read at an index: its entry (a·2048 + b, k) is entry (a, b, k) of the array. -/
theorem flatten_apply (x : Cube.Idx → EReal) (h : Cube.ShapeCasts Flat) (a : Fin 16) (b : Fin 2048) (k : Fin 2048) :
    shapeCast Flat x h (ix2 (flatRow a b) k) = x (ix3 a b k) :=
  shapeCast_apply x h (ix2 (flatRow a b) k) (ix3 a b k) (rowMajor_flat a b k)

/-- The unflattening read at an index: its entry (a, b, k) is entry (a·2048 + b, k) of the flat array. -/
theorem unflatten_apply (y : Flat.Idx → EReal) (h : Flat.ShapeCasts Cube) (a : Fin 16) (b : Fin 2048) (k : Fin 2048) :
    shapeCast Cube y h (ix3 a b k) = y (ix2 (flatRow a b) k) :=
  shapeCast_apply y h (ix3 a b k) (ix2 (flatRow a b) k) (rowMajor_flat a b k).symm

/-- Flatten, normalise the 32768 rows, unflatten: the array's own rows normalised.  Row (a, b) and flat row
    a·2048 + b hold the same 2048 entries, so they have the same sum and the same factor. -/
theorem unflatten_normFlat (x : Cube.Idx → EReal) (h : Cube.ShapeCasts Flat) (h' : Flat.ShapeCasts Cube) :
    shapeCast Cube (normFlat (shapeCast Flat x h)) h' = normCube x := by
  funext i
  obtain ⟨a, b, j, rfl⟩ : ∃ (a : Fin 16) (b : Fin 2048) (j : Fin 2048), i = ix3 a b j := ⟨i 0, i 1, i 2, eq_ix3 i⟩
  rw [unflatten_apply]
  show shapeCast Flat x h (ix2 (flatRow a b) j) * scale (∑ k : Fin 2048, shapeCast Flat x h (ix2 (flatRow a b) k))
    = x (ix3 a b j) * scale (∑ k : Fin 2048, x (ix3 a b k))
  simp only [flatten_apply]

end Cert.RowNorm

end
-- ==== Proof.RefRows.lean ====
/-
  The reference computes the rows of its argument normalised.

  Read one operation at a time, entry (a, b, j) of the reference's result is the argument's entry times
  1 / max(0 + Σ_k x(a, b, k), ε): the sum over the last axis started from the zero word, the clamp and the numerator
  broadcast from scalars, the quotient taken per row and broadcast back along the row.  The zero word is the number
  0, so the started sum is the row's sum, and the entry is `normCube`'s.
-/
import proofs.«177875_g14499809591880_feedfinal_214_2_alg».proof.Proof.Gen.ReferenceIdeal.Read
import proofs.«177875_g14499809591880_feedfinal_214_2_alg».proof.Proof.RowNorm

noncomputable section

open scoped BigOperators

namespace Cert.ReferenceIdeal.Rows

open Cert.ReferenceIdeal Cert.ReferenceIdeal.Gen Cert.ReferenceIdeal.Read Cert.RowNorm
open Idealize.ShloMosaic Idealize.ShloMosaic.ValueIdx

/-- The entries the reference's row sum at (a, b, j) runs over are (a, b, k), k along the row: the two broadcasts
    read the quotient back at row (a, b), and the sum at that row inserts k as the last coordinate. -/
theorem row_index (i : S16x2048x2048.Idx) (k : Fin 2048) :
    idx_main_v0 (idx_main_v5 (idx_main_v6 i)) k = ix3 (i 0) (i 1) k :=
  funext fun a => Fin.ext (by match a with | ⟨0, _⟩ => rfl | ⟨1, _⟩ => rfl | ⟨2, _⟩ => rfl)

/-- The reference's result is its argument's rows normalised. -/
theorem result_eq (x : (⟨S16x2048x2048, .f32⟩ : BufTy).Contents (Elt Ideal)) :
    val_main_v7 (F := Ideal) x = normCube x := by
  funext i
  rw [val_main_v7_apply, val_main_v6_apply, val_main_v5_apply, val_main_v4_apply, val_main_v3_apply,
    val_main_cst_1_apply, val_main_v2_apply, val_main_v0_apply, val_main_cst_apply, val_main_v1_apply,
    val_main_cst_0_apply]
  simp only [row_index, Ideal.mulf_def, Ideal.hostDivf_def, Ideal.maximumf_def, Ideal.ofBits_def,
    Ideal.ofBits_zero_f32, zero_add]
  rfl

end Cert.ReferenceIdeal.Rows

end
-- ==== Proof.BlockRows.lean ====
/-
  What the kernel body stores, entry by entry.

  The body loads a block of 512 rows, sums each row, clamps the sum from below, takes the reciprocal and multiplies
  the row by it.  So entry (p, q) of the stored block is the loaded block's entry (p, q) times the factor of the
  block's row p.  A block whose rows are rows r·512 … r·512 + 511 of a [32768, 2048] array therefore stores those
  rows of the array normalised: the factor of a row depends on that row alone, and the whole row lies in the block.
-/
import proofs.«177875_g14499809591880_feedfinal_214_2_alg».proof.Proof.Gen.KernelIdeal.Skeleton
import proofs.«177875_g14499809591880_feedfinal_214_2_alg».proof.Proof.RowNorm
import Idealize.ShloMosaic.Lib.ValueLayout

noncomputable section

open scoped BigOperators

namespace Cert.KernelIdeal.Rows

open Cert.KernelIdeal Cert.KernelIdeal.Gen Cert.RowNorm
open Idealize.ShloMosaic Idealize.ShloMosaic.ValueIdx

/-- The lane sum of a block at row p is the sum of the block's entries (p, k) along the row. -/
theorem row_sum (v : FVec Ideal S512x2048 .f32) (p : Fin 512) :
    multiReduction .add [1] S512 v 0x00000000#32 reduces_S512x2048_S512 (.inl rfl) rfl (ix1 p)
      = ∑ k : Fin 2048, v (ix2 p k) := by
  refine (Ideal.multiReduction_add_single (φ := .f32) v 0x00000000#32 reduces_S512x2048_S512 (.inl rfl) rfl (ix1 p)).trans ?_
  refine Finset.sum_congr rfl fun k _ => ?_
  exact congrArg v (funext fun a => Fin.ext (by match a with | ⟨0, _⟩ => rfl | ⟨1, _⟩ => rfl))

/-- The column of row sums [512] → [512, 1] read at (p, 0) is the sum of row p. -/
theorem column_apply (s : FVec Ideal S512 .f32) (p : Fin 512) :
    shapeCast S512x1 s shapeCasts_S512_S512x1 (ix2 p (0 : Fin 1)) = s (ix1 p) := by
  refine shapeCast_apply s shapeCasts_S512_S512x1 (ix2 p (0 : Fin 1)) (ix1 p) ?_
  rw [Shape.rowMajor_val_one, Shape.rowMajor_val_two]
  show p.val = p.val * 1 + 0
  omega

/-- The column of factors [512, 1] → [512, 2048] read at (p, q) is the factor of row p. -/
theorem along_row_apply (f : FVec Ideal S512x1 .f32) (p : Fin 512) (q : Fin 2048) :
    broadcastTo S512x2048 f broadcasts_S512x1_S512x2048 (ix2 p q) = f (ix2 p (0 : Fin 1)) := by
  refine broadcastTo_apply f broadcasts_S512x1_S512x2048 (ix2 p q) (ix2 p (0 : Fin 1)) fun a => ?_
  match a with
  | ⟨0, _⟩ => show p.val = if (512 : Nat) = 1 then 0 else p.val; rw [if_neg (by decide)]
  | ⟨1, _⟩ => show 0 = if (1 : Nat) = 1 then 0 else q.val; rw [if_pos rfl]

/-- Entry (p, q) of what the body stores: the loaded entry times the factor of the loaded block's row p. -/
theorem payload_apply (v : Vec Ideal S512x2048 .f32) (p : Fin 512) (q : Fin 2048) :
    k0_pay1 (F := Ideal) v (ix2 p q) = v (ix2 p q) * scale (∑ k : Fin 2048, v (ix2 p k)) := by
  unfold k0_pay1
  simp only [shapeCast_self]
  refine (mulf_apply _ _ _).trans ?_
  refine congrArg (v (ix2 p q) * ·) ?_
  refine (along_row_apply _ p q).trans ?_
  unfold scale
  refine congrArg (fun s => Ideal.div (Ideal.ofBits .f32 0x3F800000#32) (max s (Ideal.ofBits .f32 0x3727C5AC#32))) ?_
  exact (column_apply _ p).trans (row_sum v p)

/-- Row p of block r (of 64 blocks of 512 rows) is a row of the [32768, 2048] array. -/
theorem row_lt (r : Nat) (hr : r < 64) (p : Fin 512) : r * 512 + p.val < 32768 := by
  have := p.isLt; omega

/-- A block holding rows r·512 … r·512 + 511 of an array stores those rows of the array normalised: its entry
    `y` is the normalised array's entry `i` whenever `i` is row r·512 + y₀, column y₁. -/
theorem block_rows (A : Flat.Idx → EReal) (v : Vec Ideal S512x2048 .f32) (r : Nat) (hr : r < 64)
    (hv : ∀ (p : Fin 512) (q : Fin 2048), v (ix2 p q) = A (ix2 ⟨r * 512 + p.val, row_lt r hr p⟩ q))
    (y : S512x2048.Idx) (i : Flat.Idx) (hi0 : (i 0).val = r * 512 + (y 0).val) (hi1 : (i 1).val = (y 1).val) :
    k0_pay1 (F := Ideal) v y = normFlat A i := by
  obtain ⟨p, q, rfl⟩ : ∃ (p : Fin 512) (q : Fin 2048), y = ix2 p q := ⟨y 0, y 1, eq_ix2 y⟩
  obtain ⟨g, j, rfl⟩ : ∃ (g : Fin 32768) (j : Fin 2048), i = ix2 g j := ⟨i 0, i 1, eq_ix2 i⟩
  obtain rfl : g = ⟨r * 512 + p.val, row_lt r hr p⟩ := Fin.ext hi0
  obtain rfl : j = q := Fin.ext hi1
  rw [payload_apply]
  show v (ix2 p j) * scale (∑ k : Fin 2048, v (ix2 p k))
    = A (ix2 ⟨r * 512 + p.val, _⟩ j) * scale (∑ k : Fin 2048, A (ix2 ⟨r * 512 + p.val, _⟩ k))
  simp only [hv]

end Cert.KernelIdeal.Rows

end
-- ==== Proof.KernelArray.lean ====
/-
  The kernel's result array.

  The program flattens its argument to [32768, 2048], runs the body over 64 blocks of 512 rows, and unflattens the
  region's output.  Point t of the grid reads rows t·512 … t·512 + 511 of the flattened argument and writes the same
  rows of the output; what it writes is those rows normalised, because a row's factor depends on that row alone and
  the block holds whole rows.  Row r lies in block r / 512, so the 64 blocks cover the output, which therefore ends
  as the flattened argument's rows normalised; unflattened, that is the argument's rows normalised.
-/
import proofs.«177875_g14499809591880_feedfinal_214_2_alg».proof.Proof.Gen.KernelIdeal.Frame
import proofs.«177875_g14499809591880_feedfinal_214_2_alg».proof.Proof.BlockRows
import Idealize.ShloMosaic.Lib.Pipeline.Value
import Idealize.ShloMosaic.Lib.StableHlo.Run

set_option maxRecDepth 16384

noncomputable section

open scoped BigOperators

namespace Cert.KernelIdeal.Rows

open Cert.KernelIdeal Cert.KernelIdeal.Gen Cert.RowNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Both windows move down the rows together: at point t each is at block (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The region finds the flattened argument in its input array. -/
theorem entry_flat (c : Dev nD) :
    (V m c main_v0 : S32768x2048.Idx → EReal)
      = shapeCast S32768x2048 (m ((c : Thread nD τ).loc main_arg0)) shapeCasts_S16x2048x2048_S32768x2048 := by
  show StableHlo.after hostOps0 (fun b => m (c, b)) (Proc.devRef .tc main_v0) = _
  after_results
  rfl

/-- The input block at point t holds rows t·512 … t·512 + 511 of the region's input array. -/
theorem iblk_rows (c : Dev nD) (t : Fin cfg0.N) (p : Fin 512) (q : Fin 2048) :
    (iblk m c 0 t : Vec Ideal S512x2048 .f32) (ix2 p q)
      = (V m c main_v0 : Flat.Idx → EReal) (ix2 ⟨t.val * 512 + p.val, row_lt t.val (by have := t.isLt; have hN : cfg0.N = 64 := N_0; omega) p⟩ q) := by
  obtain ⟨e0, e1, -, -⟩ := block_index t
  show V m c main_v0 (((cfg0.win 0).blk t).view.emb (ix2 p q)) = V m c main_v0 _
  refine congrArg (V m c main_v0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 2048 + 1 * q.val = q.val; rw [e1]; omega

/-- What point t writes back is block t of the region's input array with its rows normalised. -/
theorem flushed_rows (c : Dev nD) (t : Fin cfg0.N) :
    (dats m 0 c).flushed 1 t = ((cfg0.win 1).blk t).view.read (Elt Ideal) (normFlat (V m c main_v0)) := by
  show (cfg0.win 1).cut (grid0.coords t) ((dats m 0 c).after 1 t) = _
  rw [after0_1]
  unfold out0_1
  rw [View.canon_unit_zero zero_offsets]
  simp only [View.ld_unit_zero (S := S512x2048) zero_offsets]
  obtain ⟨-, -, e2, e3⟩ := block_index t
  have hN : cfg0.N = 64 := N_0
  funext y
  show k0_pay1 (F := Ideal) (iblk m c 0 t) y = normFlat (V m c main_v0) (((cfg0.win 1).blk t).view.emb y)
  refine block_rows (V m c main_v0) (iblk m c 0 t) t.val (by have := t.isLt; omega) (iblk_rows m c t) y
    (((cfg0.win 1).blk t).view.emb y) ?_ ?_
  · show win0_1.index t (0 : Fin 2) * 512 + 1 * (y 0).val = t.val * 512 + (y 0).val; rw [e2]; omega
  · show win0_1.index t (1 : Fin 2) * 2048 + 1 * (y 1).val = (y 1).val; rw [e3]; omega

/-- An index of the output array is in point t's block iff each coordinate is in the block's range on its axis. -/
theorem mem_block (t : Fin cfg0.N) (i : S32768x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v1).slice (win0_1.rect t)).set ↔ _
  rw [View.set_slice_whole, Rect.mem_set_unit]
  exact Iff.rfl

/-- Row r of the output lies in the block of point r / 512: the 64 blocks cover the array. -/
theorem blocks_cover (i : S32768x2048.Idx) :
    ∃ t : Fin cfg0.N, (cfg0.win 1).flush t = true ∧ i ∈ ((cfg0.win 1).blk t).view.set := by
  have hN : grid0.N = 64 := N_0
  have h0 : (i 0).val < 32768 := (i 0).isLt
  have h1 : (i 1).val < 2048 := (i 1).isLt
  let t : Fin cfg0.N := ⟨(i 0).val / 512, by show (i 0).val / 512 < grid0.N; omega⟩
  obtain ⟨-, -, e2, e3⟩ := block_index t
  have ht : t.val = (i 0).val / 512 := rfl
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; rw [e2]; omega
  | ⟨1, _⟩ => show win0_1.index t (1 : Fin 2) * 2048 ≤ (i 1).val ∧ (i 1).val < win0_1.index t (1 : Fin 2) * 2048 + 2048; rw [e3]; omega

/-- The region's output array after the run: its input array's rows normalised. -/
theorem output_rows (c : Dev nD) : (dats m 0 c).arrAt 1 cfg0.N = normFlat (V m c main_v0) :=
  (dats m 0 c).arrAt_eq_of_cover 1 (normFlat (V m c main_v0)) (fun t _ => flushed_rows m c t) blocks_cover

/-- The program's result, the region's output unflattened: the argument's rows normalised. -/
theorem result_rows (c : Dev nD) :
    Pipeline.afterTail₀ cfgs (dats m) 0 (V0 m) [hostOps1] c main_v2 = normCube (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = normFlat (V m c main_v0) :=
    (Pipeline.withArrays_arr spec0 launch0.win.arr_inj c _ _ 1).trans (output_rows m c)
  rw [e, entry_flat]
  exact unflatten_normFlat _ _ _

/-- The run, read: the result array ends as the argument's rows normalised, the argument unchanged. -/
theorem run : θ_run defs (onTc (τ := τ) (main (F := Ideal))) ⟨m, fun _ => 0, ρ⟩ fun r => ∀ c : Dev nD,
      r.2.mem ((c.tc : Thread nD τ).loc main_v2) = normCube (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_rows m c),
       ((h c).2 main_arg0 (Pipeline.mem_restRefs_of main_arg0 (by decide) (by decide))).trans (W_main_arg0 m (dats m) c)⟩)
    (run_main m ρ)

end Cert.KernelIdeal.Rows

end
-- ==== Proof.lean ====
/-
  A kernel that L1-normalises the rows of a [16, 2048, 2048] array — every entry multiplied by
  1 / max(row sum, ε) — against the reference that does the same with a sum over the last axis.

  The kernel flattens the array to 32768 rows, normalises them 512 rows at a time over a grid of 64 points, and
  unflattens the result; the reference sums along the last axis, clamps, takes the reciprocal per row and
  multiplies it back along the row.  On the extended reals both results are, entry by entry, the argument's entry
  times 1 / max(Σ_k x(a, b, k), ε): a block holds whole rows, so a row's factor is the same whichever block the
  row is in; the 64 blocks cover the rows; flattening keeps each row's entries together; and the reference's sum,
  started from the zero word, is the row's sum.  The two programs carry the same words for 1 and for ε and both
  divide, so no constant is evaluated and no law beyond re-listing the same entries is used: the finiteness of the
  input is never opened.  The idealised kernel is the kernel's own text read on the extended reals (nothing was
  rewritten), so that conjunct is trivial.  The three runs terminate without fault with their arguments unchanged.
-/
import proofs.«177875_g14499809591880_feedfinal_214_2_alg».proof.Defs
import proofs.«177875_g14499809591880_feedfinal_214_2_alg».proof.Proof.Gen.Kernel
import proofs.«177875_g14499809591880_feedfinal_214_2_alg».proof.Proof.Gen.Kernel.Skeleton
import proofs.«177875_g14499809591880_feedfinal_214_2_alg».proof.Proof.Gen.Kernel.Launch
import proofs.«177875_g14499809591880_feedfinal_214_2_alg».proof.Proof.Gen.Kernel.Points
import proofs.«177875_g14499809591880_feedfinal_214_2_alg».proof.Proof.Gen.Kernel.Frame
import proofs.«177875_g14499809591880_feedfinal_214_2_alg».proof.Proof.Gen.KernelIdeal
import proofs.«177875_g14499809591880_feedfinal_214_2_alg».proof.Proof.Gen.KernelIdeal.Skeleton
import proofs.«177875_g14499809591880_feedfinal_214_2_alg».proof.Proof.Gen.KernelIdeal.Launch
import proofs.«177875_g14499809591880_feedfinal_214_2_alg».proof.Proof.Gen.KernelIdeal.Points
import proofs.«177875_g14499809591880_feedfinal_214_2_alg».proof.Proof.Gen.KernelIdeal.Frame
import proofs.«177875_g14499809591880_feedfinal_214_2_alg».proof.Proof.Gen.ReferenceIdeal
import proofs.«177875_g14499809591880_feedfinal_214_2_alg».proof.Proof.Gen.Pre_finite_inputs
import proofs.«177875_g14499809591880_feedfinal_214_2_alg».proof.Proof.Gen.ReferenceIdeal.Run
import proofs.«177875_g14499809591880_feedfinal_214_2_alg».proof.Proof.Gen.ReferenceIdeal.Read
import proofs.«177875_g14499809591880_feedfinal_214_2_alg».proof.Proof.RowNorm
import proofs.«177875_g14499809591880_feedfinal_214_2_alg».proof.Proof.RefRows
import proofs.«177875_g14499809591880_feedfinal_214_2_alg».proof.Proof.BlockRows
import proofs.«177875_g14499809591880_feedfinal_214_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end without fault, its argument unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the argument both programs end with the argument's rows normalised. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RowNorm.normCube (m ((c.tc : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Rows.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
